-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768x768 .f32) (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S8x1024x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_v13 main_v16
-- ==== Kernel.lean ====
abbrev S8x1024x768 : Shape := ⟨3, ![8, 1024, 768]⟩
abbrev S768x768 : Shape := ⟨2, ![768, 768]⟩
abbrev S768 : Shape := ⟨1, ![768]⟩
abbrev S1x768 : Shape := ⟨2, ![1, 768]⟩
abbrev S1x1024x768 : Shape := ⟨3, ![1, 1024, 768]⟩
abbrev S1024x768 : Shape := ⟨2, ![1024, 768]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1x1024x64 : Shape := ⟨3, ![1, 1024, 64]⟩

abbrev nBuf : Space → Nat
  | .hbm => 14
  | .vmem => 13
  | .smem => 0
  | _ => 0

abbrev bufTy : (tb : Table) → Fin (tcTables nBuf tb) → BufTy
  | .hbm, ⟨0, _⟩ => ⟨S8x1024x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768x768, .f32⟩
  | .hbm, ⟨9, _⟩ => ⟨S768x768, .f32⟩
  | .hbm, ⟨10, _⟩ => ⟨S1x768, .f32⟩
  | .hbm, ⟨11, _⟩ => ⟨S1x768, .f32⟩
  | .hbm, ⟨12, _⟩ => ⟨S1x768, .f32⟩
  | .hbm, ⟨13, _⟩ => ⟨S8x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S768x768, .f32⟩
  | .local _ .vmem, ⟨3, _⟩ => ⟨S768x768, .f32⟩
  | .local _ .vmem, ⟨4, _⟩ => ⟨S768x768, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S1x1024x768, .f32⟩
  | .local _ .vmem, ⟨9, _⟩ => ⟨S1x1024x768, .f32⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S768x768_S768x768_1_0 : S768x768.Transposes [1, 0] S768x768
  shapeCasts_S768_S1x768 : S768.ShapeCasts S1x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  packedbf16_S1024x768_S1024x768_0_0 : (Rect.unit (s := S1024x768) ![0, 0] S1024x768.size inb_S1024x768_S1024x768_0_0).PackedRows (EltTy.packing .bf16)
  inb_S1024x768_S1024x64_0_0 : ∀ a, (![0, 0] : Fin 2 → Nat) a + S1024x64.size a ≤ S1024x768.size a
  h_S1024x64 : 0 < S1024x64.numel
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  inb_S1x1024x768_S1x1024x64_0_0_0 : ∀ a, (![0, 0, 0] : Fin 3 → Nat) a + S1x1024x64.size a ≤ S1x1024x768.size a
  h_S1x1024x64 : 0 < S1x1024x64.numel
  shapeCasts_S1x1024x64_S1024x64 : S1x1024x64.ShapeCasts S1024x64
  shapeCasts_S1024x64_S1x1024x64 : S1024x64.ShapeCasts S1x1024x64
  inb_S1024x768_S1024x64_0_64 : ∀ a, (![0, 64] : Fin 2 → Nat) a + S1024x64.size a ≤ S1024x768.size a
  inb_S1x1024x768_S1x1024x64_0_0_64 : ∀ a, (![0, 0, 64] : Fin 3 → Nat) a + S1x1024x64.size a ≤ S1x1024x768.size a
  inb_S1024x768_S1024x64_0_128 : ∀ a, (![0, 128] : Fin 2 → Nat) a + S1024x64.size a ≤ S1024x768.size a
  inb_S1x1024x768_S1x1024x64_0_0_128 : ∀ a, (![0, 0, 128] : Fin 3 → Nat) a + S1x1024x64.size a ≤ S1x1024x768.size a
  inb_S1024x768_S1024x64_0_192 : ∀ a, (![0, 192] : Fin 2 → Nat) a + S1024x64.size a ≤ S1024x768.size a
  inb_S1x1024x768_S1x1024x64_0_0_192 : ∀ a, (![0, 0, 192] : Fin 3 → Nat) a + S1x1024x64.size a ≤ S1x1024x768.size a
  inb_S1024x768_S1024x64_0_256 : ∀ a, (![0, 256] : Fin 2 → Nat) a + S1024x64.size a ≤ S1024x768.size a
  inb_S1x1024x768_S1x1024x64_0_0_256 : ∀ a, (![0, 0, 256] : Fin 3 → Nat) a + S1x1024x64.size a ≤ S1x1024x768.size a
  inb_S1024x768_S1024x64_0_320 : ∀ a, (![0, 320] : Fin 2 → Nat) a + S1024x64.size a ≤ S1024x768.size a
  inb_S1x1024x768_S1x1024x64_0_0_320 : ∀ a, (![0, 0, 320] : Fin 3 → Nat) a + S1x1024x64.size a ≤ S1x1024x768.size a
  inb_S1024x768_S1024x64_0_384 : ∀ a, (![0, 384] : Fin 2 → Nat) a + S1024x64.size a ≤ S1024x768.size a
  inb_S1x1024x768_S1x1024x64_0_0_384 : ∀ a, (![0, 0, 384] : Fin 3 → Nat) a + S1x1024x64.size a ≤ S1x1024x768.size a
  inb_S1024x768_S1024x64_0_448 : ∀ a, (![0, 448] : Fin 2 → Nat) a + S1024x64.size a ≤ S1024x768.size a
  inb_S1x1024x768_S1x1024x64_0_0_448 : ∀ a, (![0, 0, 448] : Fin 3 → Nat) a + S1x1024x64.size a ≤ S1x1024x768.size a
  inb_S1024x768_S1024x64_0_512 : ∀ a, (![0, 512] : Fin 2 → Nat) a + S1024x64.size a ≤ S1024x768.size a
  inb_S1x1024x768_S1x1024x64_0_0_512 : ∀ a, (![0, 0, 512] : Fin 3 → Nat) a + S1x1024x64.size a ≤ S1x1024x768.size a
  inb_S1024x768_S1024x64_0_576 : ∀ a, (![0, 576] : Fin 2 → Nat) a + S1024x64.size a ≤ S1024x768.size a
  inb_S1x1024x768_S1x1024x64_0_0_576 : ∀ a, (![0, 0, 576] : Fin 3 → Nat) a + S1x1024x64.size a ≤ S1x1024x768.size a
  inb_S1024x768_S1024x64_0_640 : ∀ a, (![0, 640] : Fin 2 → Nat) a + S1024x64.size a ≤ S1024x768.size a
  inb_S1x1024x768_S1x1024x64_0_0_640 : ∀ a, (![0, 0, 640] : Fin 3 → Nat) a + S1x1024x64.size a ≤ S1x1024x768.size a
  inb_S1024x768_S1024x64_0_704 : ∀ a, (![0, 704] : Fin 2 → Nat) a + S1024x64.size a ≤ S1024x768.size a
  inb_S1x1024x768_S1x1024x64_0_0_704 : ∀ a, (![0, 0, 704] : Fin 3 → Nat) a + S1x1024x64.size a ≤ S1x1024x768.size a
  dot_S1024x768_S768x768_S1024x768_1_0_0_1_n_n_wf : DotDims.WF S1024x768 S768x768 S1024x768 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x1024x768.size a
  hwx0_0 : ∀ i : grid0.Coords, EltTy.bits .f32 = 32 ∨ (Rect.block (s := S8x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x768.size a ≤ S8x1024x768.size a
  hwx0_7 : ∀ i : grid0.Coords, EltTy.bits .f32 = 32 ∨ (Rect.block (s := S8x1024x768) S1x1024x768.size (cc0_transform_7 i) (hinb0_7 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1024x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x1024x768 : Shape := ⟨3, ![8, 1024, 768]⟩
abbrev S768x768 : Shape := ⟨2, ![768, 768]⟩
abbrev S768 : Shape := ⟨1, ![768]⟩
abbrev S1x1x768 : Shape := ⟨3, ![1, 1, 768]⟩
abbrev S8x1024x12x64 : Shape := ⟨4, ![8, 1024, 12, 64]⟩
abbrev S8x12x1024x64 : Shape := ⟨4, ![8, 12, 1024, 64]⟩
abbrev S8x12x1024x1024 : Shape := ⟨4, ![8, 12, 1024, 1024]⟩
abbrev S_ : Shape := ⟨0, ![]⟩
abbrev S8x12x1024 : Shape := ⟨3, ![8, 12, 1024]⟩
abbrev S8x12x1024x1 : Shape := ⟨4, ![8, 12, 1024, 1]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S8x1024x768, .f32⟩
  | .hbm, ⟨8, _⟩ => ⟨S1x1x768, .f32⟩
  | .hbm, ⟨9, _⟩ => ⟨S8x1024x768, .f32⟩
  | .hbm, ⟨10, _⟩ => ⟨S8x1024x768, .f32⟩
  | .hbm, ⟨11, _⟩ => ⟨S8x1024x12x64, .f32⟩
  | .hbm, ⟨12, _⟩ => ⟨S8x12x1024x64, .f32⟩
  | .hbm, ⟨13, _⟩ => ⟨S8x1024x768, .f32⟩
  | .hbm, ⟨14, _⟩ => ⟨S1x1x768, .f32⟩
  | .hbm, ⟨15, _⟩ => ⟨S8x1024x768, .f32⟩
  | .hbm, ⟨16, _⟩ => ⟨S8x1024x768, .f32⟩
  | .hbm, ⟨17, _⟩ => ⟨S8x1024x12x64, .f32⟩
  | .hbm, ⟨18, _⟩ => ⟨S8x12x1024x64, .f32⟩
  | .hbm, ⟨19, _⟩ => ⟨S8x1024x768, .f32⟩
  | .hbm, ⟨20, _⟩ => ⟨S1x1x768, .f32⟩
  | .hbm, ⟨21, _⟩ => ⟨S8x1024x768, .f32⟩
  | .hbm, ⟨22, _⟩ => ⟨S8x1024x768, .f32⟩
  | .hbm, ⟨23, _⟩ => ⟨S8x1024x12x64, .f32⟩
  | .hbm, ⟨24, _⟩ => ⟨S8x12x1024x64, .f32⟩
  | .hbm, ⟨25, _⟩ => ⟨S8x12x1024x1024, .f32⟩
  | .hbm, ⟨26, _⟩ => ⟨S_, .f32⟩
  | .hbm, ⟨27, _⟩ => ⟨S_, .f32⟩
  | .hbm, ⟨28, _⟩ => ⟨S8x12x1024x1024, .f32⟩
  | .hbm, ⟨29, _⟩ => ⟨S8x12x1024x1024, .f32⟩
  | .hbm, ⟨30, _⟩ => ⟨S_, .f32⟩
  | .hbm, ⟨31, _⟩ => ⟨S8x12x1024, .f32⟩
  | .hbm, ⟨32, _⟩ => ⟨S_, .f32⟩
  | .hbm, ⟨33, _⟩ => ⟨S8x12x1024, .f32⟩
  | .hbm, ⟨34, _⟩ => ⟨S8x12x1024, .f32⟩
  | .hbm, ⟨35, _⟩ => ⟨S8x12x1024x1, .f32⟩
  | .hbm, ⟨36, _⟩ => ⟨S8x12x1024x1024, .f32⟩
  | .hbm, ⟨37, _⟩ => ⟨S8x12x1024x1024, .f32⟩
  | .hbm, ⟨38, _⟩ => ⟨S8x12x1024x1024, .f32⟩
  | .hbm, ⟨39, _⟩ => ⟨S_, .f32⟩
  | .hbm, ⟨40, _⟩ => ⟨S8x12x1024, .f32⟩
  | .hbm, ⟨41, _⟩ => ⟨S8x12x1024x1, .f32⟩
  | .hbm, ⟨42, _⟩ => ⟨S8x12x1024x1024, .f32⟩
  | .hbm, ⟨43, _⟩ => ⟨S8x12x1024x1024, .f32⟩
  | .hbm, ⟨44, _⟩ => ⟨S8x12x1024x64, .f32⟩
  | .hbm, ⟨45, _⟩ => ⟨S8x1024x12x64, .f32⟩
  | .hbm, ⟨46, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  shapeCasts_S8x1024x768_S8x1024x12x64 : S8x1024x768.ShapeCasts S8x1024x12x64
  transposes_S8x1024x12x64_S8x12x1024x64_0_2_1_3 : S8x1024x12x64.Transposes [0, 2, 1, 3] S8x12x1024x64
  bcast_S_S8x12x1024x1024 : S_.BroadcastsInDim S8x12x1024x1024 (![] : Fin 0 → Fin S8x12x1024x1024.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  dot_S8x1024x768_S768x768_S8x1024x768_2_1_01_0_n_n_wf : DotDims.WF S8x1024x768 S768x768 S8x1024x768 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]

variable [Facts₀]

def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf

class Facts : Prop extends Facts₀ where

variable [Facts]
-- ==== Proof.Spec.lean ====
/-
  Multi-head self-attention over the extended reals, index by index.

  For a batch x : [8, 1024, 768], weights W : [768, 768] and biases b : [768] (one triple each for queries, keys and
  values), with 12 heads of width 64 (head h owns the columns 64h … 64h + 63):

    proj x W b (β, s, j)   = Σ_i x(β, s, i) · W(j, i) + b(j)                               (the linear layer x Wᵀ + b)
    score (β, h, s, t)     = (Σ_e Q(β, s, 64h + e) · K(β, t, 64h + e)) · (1/8)             (1/8 = 1/√64, an exact dyadic)
    attnRow n σ w          = Σ_t  exp(σ t − max σ) / (Σ_u exp(σ u − max σ)) · w t          (softmax-weighted sum of a row)
    G (β, s, j)            = attnRow 1024 (score(β, j / 64, s, ·)) (V(β, ·, j))

  The maximum of a row is the fold of max from −∞. The three float words that occur (1/8, 64, −∞) are evaluated here,
  once. Nothing here depends on a program.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-! ## The float words -/

/-- The word of −∞ denotes the bottom of the extended reals. -/
theorem ofBits_neg_inf : Ideal.ofBits .f32 0xFF800000#32 = (⊥ : EReal) := by
  simp [Ideal.ofBits, Ideal.ieee]

/-- The word 0x3E000000 (0.125) denotes the real 1/8. -/
theorem ofBits_eighth : Ideal.ofBits .f32 0x3E000000#32 = ((1 / 8 : ℝ) : EReal) := by
  simp [Ideal.ofBits, Ideal.ieee, -EReal.coe_mul]; norm_num

/-- The word 0x42800000 (64.0) denotes the real 64. -/
theorem ofBits_64 : Ideal.ofBits .f32 0x42800000#32 = ((64 : ℝ) : EReal) := by
  simp [Ideal.ofBits, Ideal.ieee, -EReal.coe_mul]; norm_num

/-- The square root of 64 is 8, on the extended reals. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- Dividing by √64 is multiplying by 1/8, at every extended real. -/
theorem div_sqrt_64 (a : EReal) :
    Ideal.div a (Ideal.sqrt (Ideal.ofBits .f32 0x42800000#32)) = a * Ideal.ofBits .f32 0x3E000000#32 := by
  rw [ofBits_64, sqrt_64, ofBits_eighth, Ideal.div_coe (by norm_num : (8 : ℝ) ≠ 0)]

/-! ## The specification -/

/-- Column e of head h. -/
def col (h : Fin 12) (e : Fin 64) : Fin 768 := ⟨64 * h.val + e.val, by have := h.isLt; have := e.isLt; omega⟩

/-- The linear layer x Wᵀ + b at (β, s, j). -/
def proj (x : (⟨3, ![8, 1024, 768]⟩ : Shape).Idx → EReal) (W : (⟨2, ![768, 768]⟩ : Shape).Idx → EReal)
    (bias : (⟨1, ![768]⟩ : Shape).Idx → EReal) (β : Fin 8) (s : Fin 1024) (j : Fin 768) : EReal :=
  (∑ i : Fin 768, x (ix3 β s i) * W (ix2 j i)) + bias (ix1 j)

/-- The scaled score of query row s against key row t in head h, from the projected rows q and k of one batch entry. -/
def score (q k : Fin 1024 → Fin 768 → EReal) (h : Fin 12) (s t : Fin 1024) : EReal :=
  (∑ e : Fin 64, q s (col h e) * k t (col h e)) * Ideal.ofBits .f32 0x3E000000#32

/-- The maximum of a row: the fold of max from −∞. -/
def rowMax {n : ℕ} (σ : Fin n → EReal) : EReal :=
  (Finset.univ : Finset (Fin n)).fold max (Ideal.ofBits .f32 0xFF800000#32) σ

/-- The softmax of the row σ, weighting the entries of w. -/
def attnRow {n : ℕ} (σ w : Fin n → EReal) : EReal :=
  ∑ t : Fin n, Ideal.div (Ideal.exp (σ t - rowMax σ)) (∑ u : Fin n, Ideal.exp (σ u - rowMax σ)) * w t

/-- One entry of one head's output: row s, column d of head h, batch entry β. -/
def headAt (x : (⟨3, ![8, 1024, 768]⟩ : Shape).Idx → EReal)
    (Wq : (⟨2, ![768, 768]⟩ : Shape).Idx → EReal) (bq : (⟨1, ![768]⟩ : Shape).Idx → EReal)
    (Wk : (⟨2, ![768, 768]⟩ : Shape).Idx → EReal) (bk : (⟨1, ![768]⟩ : Shape).Idx → EReal)
    (Wv : (⟨2, ![768, 768]⟩ : Shape).Idx → EReal) (bv : (⟨1, ![768]⟩ : Shape).Idx → EReal)
    (β : Fin 8) (h : Fin 12) (s : Fin 1024) (d : Fin 64) : EReal :=
  attnRow (fun t => score (proj x Wq bq β) (proj x Wk bk β) h s t) (fun t => proj x Wv bv β t (col h d))

/-- The whole result: entry (β, s, j) is column j mod 64 of head j / 64. -/
def G (x : (⟨3, ![8, 1024, 768]⟩ : Shape).Idx → EReal)
    (Wq : (⟨2, ![768, 768]⟩ : Shape).Idx → EReal) (bq : (⟨1, ![768]⟩ : Shape).Idx → EReal)
    (Wk : (⟨2, ![768, 768]⟩ : Shape).Idx → EReal) (bk : (⟨1, ![768]⟩ : Shape).Idx → EReal)
    (Wv : (⟨2, ![768, 768]⟩ : Shape).Idx → EReal) (bv : (⟨1, ![768]⟩ : Shape).Idx → EReal) :
    (⟨3, ![8, 1024, 768]⟩ : Shape).Idx → EReal := fun y =>
  headAt x Wq bq Wk bk Wv bv (y 0)
    ⟨(y 2).val / 64, by have h : (y 2).val < 768 := (y 2).isLt; omega⟩ (y 1)
    ⟨(y 2).val % 64, Nat.mod_lt _ (by norm_num)⟩

end Cert.Attn

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KHead.lean ====
/-
  One head of the kernel, read at an index.

  From the three [1024, 64] slices q, k, v of the projected rows the body computes, for one head,
      σ(r, t) = (Σ_e q(r, e) · k(t, e)) · (1/8),      m(r) = max_t σ(r, t),
      out(r, d) = Σ_t  exp(σ(r, t) − m(r)) / (Σ_u exp(σ(r, u) − m(r))) · v(t, d),
  a plain product against the transposed keys, two lane reductions kept as [1024, 1] columns and spread back over the
  row, and a plain product with the values. Format changes are the identity on the extended reals.
-/
import proofs.«136178_j10746008174892_2_alg».proof.Proof.Spec
import proofs.«136178_j10746008174892_2_alg».proof.Proof.Gen.KernelIdeal.Skeleton
import proofs.«136178_j10746008174892_2_alg».proof.Proof.LibPlainDot
import proofs.«136178_j10746008174892_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.Head

open Cert.KernelIdeal Cert.KernelIdeal.Gen Idealize.ShloMosaic Idealize.ShloMosaic.ValueIdx Cert.Attn

/-- The three products of the body are plain products [A, K] · [K, B]. -/
theorem dotQK_plain : dot_S1024x64_S64x1024_S1024x1024_1_0_0_1_n_n = DotDims.plain 1024 64 1024 :=
  Cert.Lib.PlainDot.eq_plain _ rfl rfl rfl rfl rfl rfl
theorem dotPV_plain : dot_S1024x1024_S1024x64_S1024x64_1_0_0_1_n_n = DotDims.plain 1024 1024 64 :=
  Cert.Lib.PlainDot.eq_plain _ rfl rfl rfl rfl rfl rfl
theorem dotXW_plain : dot_S1024x768_S768x768_S1024x768_1_0_0_1_n_n = DotDims.plain 1024 768 768 :=
  Cert.Lib.PlainDot.eq_plain _ rfl rfl rfl rfl rfl rfl

/-- Row r of a [1024, 1024] array with column u inserted. -/
theorem lift_row (r u : Fin 1024) : reduces_S1024x1024_S1024.lift (ix1 r) u = ix2 r u :=
  funext fun a => Fin.ext (by match a with | ⟨0, _⟩ => rfl | ⟨1, _⟩ => rfl)

/-- A lane sum of a [1024, 1024] array at row r is the sum of the row. -/
theorem rowsum_apply (e : FVec Ideal S1024x1024 .f32) (r : Fin 1024) :
    multiReduction .add [1] S1024 e 0x00000000#32 reduces_S1024x1024_S1024 (.inl rfl) rfl (ix1 r)
      = ∑ u : Fin 1024, e (ix2 r u) :=
  (Ideal.multiReduction_add_single e 0x00000000#32 reduces_S1024x1024_S1024 (.inl rfl) rfl (ix1 r)).trans
    (Finset.sum_congr rfl fun u _ => congrArg e (lift_row r u))

/-- A lane maximum of a [1024, 1024] array at row r is the fold of max over the row, from −∞. -/
theorem rowmax_apply (e : FVec Ideal S1024x1024 .f32) (r : Fin 1024) :
    multiReduction .maximumf [1] S1024 e 0xFF800000#32 reduces_S1024x1024_S1024 (.inl rfl) rfl (ix1 r)
      = rowMax (fun u : Fin 1024 => e (ix2 r u)) :=
  (Ideal.multiReduction_maximumf_single e 0xFF800000#32 reduces_S1024x1024_S1024 (.inl rfl) rfl (ix1 r)).trans
    (congrArg (fun g => (Finset.univ : Finset (Fin 1024)).fold max (Ideal.ofBits .f32 0xFF800000#32) g)
      (funext fun u => congrArg e (lift_row r u)))

/-- A [1024] vector kept as a column and spread over the row reads, at (r, t), its entry r. -/
theorem keep_apply (x : FVec Ideal S1024 .f32) (r t : Fin 1024) :
    broadcastTo S1024x1024 (shapeCast S1024x1 x shapeCasts_S1024_S1024x1) broadcasts_S1024x1_S1024x1024 (ix2 r t)
      = x (ix1 r) :=
  (Cert.LibKeepdims.broadcastTo_a1_ab_apply _ _ r t).trans (Cert.LibKeepdims.shapeCast_a_a1_apply x _ r 0)

/-- The scaled scores: q against the transposed k, times the word of 1/8. -/
theorem scores_apply (q k : Vec Ideal S1024x64 .bf16) (r t : Fin 1024) :
    k0_pay8 (F := Ideal) q k (ix2 r t)
      = (∑ e : Fin 64, q (ix2 r e) * k (ix2 t e)) * Ideal.ofBits .f32 0x3E000000#32 := by
  unfold k0_pay8
  show (matmul dot_S1024x64_S64x1024_S1024x1024_1_0_0_1_n_n none q
      (transpose S64x1024 [1, 0] k transposes_S1024x64_p1_0_S64x1024) (constant S1024x1024 .f32 0x00000000#32)) (ix2 r t)
      * Ideal.ofBits .f32 0x3E000000#32 = _
  congr 1
  rw [dotQK_plain]
  refine (Cert.Lib.PlainDot.matmul_zero_plain_apply none q _ (ix2 r t)).trans ?_
  refine Finset.sum_congr rfl fun e _ => ?_
  congr 1
  exact transpose_apply [1, 0] k transposes_S1024x64_p1_0_S64x1024 (ix2 e t) (ix2 t e)
    (fun b => by match b with | ⟨0, _⟩ => rfl | ⟨1, _⟩ => rfl)

/-- The softmax of given scores against given row maxima, weighting the rows of v. -/
theorem soft_apply (v : Vec Ideal S1024x64 .bf16) (sc : FVec Ideal S1024x1024 .f32) (mx : FVec Ideal S1024 .f32)
    (r : Fin 1024) (d : Fin 64) :
    k0_pay10 (F := Ideal) v sc mx (ix3 (0 : Fin 1) r d)
      = ∑ t : Fin 1024, Ideal.div (Ideal.exp (sc (ix2 r t) - mx (ix1 r)))
          (∑ u : Fin 1024, Ideal.exp (sc (ix2 r u) - mx (ix1 r))) * v (ix2 t d) := by
  unfold k0_pay10
  refine (shapeCast_addUnit_apply ![1024, 64] _ _ (ix3 (0 : Fin 1) r d)).trans ?_
  rw [show (fun a : Fin 2 => (ix3 (0 : Fin 1) r d) a.succ) = ix2 r d from
    funext fun a => by match a with | ⟨0, _⟩ => rfl | ⟨1, _⟩ => rfl, dotPV_plain]
  refine (Cert.Lib.PlainDot.matmul_zero_plain_apply (φ₁ := .bf16) (φ₂ := .bf16) none _ v (ix2 r d)).trans ?_
  refine Finset.sum_congr rfl fun t _ => ?_
  congr 1
  have hm : ∀ u : Fin 1024, (subf sc (broadcastTo S1024x1024 (shapeCast S1024x1 mx shapeCasts_S1024_S1024x1)
      broadcasts_S1024x1_S1024x1024)) (ix2 r u) = sc (ix2 r u) - mx (ix1 r) := fun u =>
    congrArg (fun z => sc (ix2 r u) - z) (keep_apply mx r u)
  show Ideal.div (Ideal.exp ((subf sc _) (ix2 r t))) (broadcastTo S1024x1024 (shapeCast S1024x1 _ shapeCasts_S1024_S1024x1)
      broadcasts_S1024x1_S1024x1024 (ix2 r t)) = _
  rw [keep_apply, rowsum_apply, hm t]
  refine congrArg (fun z => Ideal.div _ z) (Finset.sum_congr rfl fun u _ => ?_)
  show Ideal.exp ((subf sc _) (ix2 r u)) = _
  rw [hm u]

/-- ONE HEAD: from the slices q, k, v, entry (r, d) of the head's output is the softmax of row r of the scaled
    scores, weighting column d of v. -/
theorem head_apply (q k v : Vec Ideal S1024x64 .bf16) (r : Fin 1024) (d : Fin 64) :
    k0_pay7 (F := Ideal) q k v (ix3 (0 : Fin 1) r d)
      = attnRow (fun t : Fin 1024 => (∑ e : Fin 64, q (ix2 r e) * k (ix2 t e)) * Ideal.ofBits .f32 0x3E000000#32)
          (fun t : Fin 1024 => v (ix2 t d)) := by
  have h1 : k0_pay7 (F := Ideal) q k v = k0_pay10 (F := Ideal) v (k0_pay8 q k) (k0_pay9 q k) := rfl
  rw [h1, soft_apply]
  have hmax : k0_pay9 (F := Ideal) q k (ix1 r) = rowMax (fun u : Fin 1024 => k0_pay8 (F := Ideal) q k (ix2 r u)) := by
    unfold k0_pay9
    exact rowmax_apply _ r
  rw [hmax]
  simp only [scores_apply]
  rfl

/-! ## The projections -/

/-- The projected rows of one batch entry: x · w + the bias row, at (r, c). -/
def projBlk (x : Vec Ideal S1x1024x768 .f32) (w : Vec Ideal S768x768 .f32) (b : Vec Ideal S1x768 .f32) :
    S1024x768.Idx → EReal := fun i =>
  (∑ k : Fin 768, x (ix3 (0 : Fin 1) (i 0) k) * w (ix2 k (i 1))) + b (ix2 (0 : Fin 1) (i 1))

/-- The body's projection before the change of format: a plain product plus the bias row spread over the rows. -/
abbrev core (x : Vec Ideal S1x1024x768 .f32) (w : Vec Ideal S768x768 .f32) (b : Vec Ideal S1x768 .f32) :
    FVec Ideal S1024x768 .f32 :=
  addf (matmul dot_S1024x768_S768x768_S1024x768_1_0_0_1_n_n none (k0_pay2 (F := Ideal) x)
      (truncf .bf16 (shapeCast S768x768 w shapeCasts_S768x768_S768x768) bitsLt_bf16_f32)
      (constant S1024x768 .f32 0x00000000#32))
    (broadcastTo S1024x768 (shapeCast S1x768 b shapeCasts_S1x768_S1x768) broadcasts_S1x768_S1024x768)

theorem proj_core (x : Vec Ideal S1x1024x768 .f32) (w : Vec Ideal S768x768 .f32) (b : Vec Ideal S1x768 .f32) :
    core x w b = projBlk x w b := by
  funext i
  obtain ⟨r, c, rfl⟩ : ∃ (r : Fin 1024) (c : Fin 768), i = ix2 r c := ⟨i 0, i 1, eq_ix2 i⟩
  show matmul dot_S1024x768_S768x768_S1024x768_1_0_0_1_n_n none (k0_pay2 (F := Ideal) x)
      (truncf .bf16 (shapeCast S768x768 w shapeCasts_S768x768_S768x768) bitsLt_bf16_f32)
      (constant S1024x768 .f32 0x00000000#32) (ix2 r c)
    + broadcastTo S1024x768 (shapeCast S1x768 b shapeCasts_S1x768_S1x768) broadcasts_S1x768_S1024x768 (ix2 r c) = _
  rw [dotXW_plain, shapeCast_self, shapeCast_self]
  refine congrArg₂ (· + ·) ?_ ?_
  · refine (Cert.Lib.PlainDot.matmul_zero_plain_apply (φ₁ := .bf16) (φ₂ := .bf16) none _ _ (ix2 r c)).trans ?_
    refine Finset.sum_congr rfl fun k _ => ?_
    congr 1
    unfold k0_pay2
    show shapeCast S1024x768 x shapeCasts_S1x1024x768_S1024x768 (ix2 r k) = _
    refine (shapeCast_dropUnit_apply ![1024, 768] x _ (ix2 r k)).trans (congrArg x ?_)
    exact funext fun a => by match a with | ⟨0, _⟩ => rfl | ⟨1, _⟩ => rfl | ⟨2, _⟩ => rfl
  · exact broadcastTo_apply b _ (ix2 r c) (ix2 (0 : Fin 1) c)
      (fun a => by match a with | ⟨0, _⟩ => rfl | ⟨1, _⟩ => rfl)

/-- The three stored projections (queries, keys, values) are that function of their weight and bias. -/
theorem pay4_eq (x : Vec Ideal S1x1024x768 .f32) (w : Vec Ideal S768x768 .f32) (b : Vec Ideal S1x768 .f32) :
    k0_pay4 (F := Ideal) x w b = projBlk x w b :=
  (show k0_pay4 (F := Ideal) x w b
      = shapeCast S1024x768 (truncf .bf16 (core x w b) bitsLt_bf16_f32) shapeCasts_S1024x768_S1024x768 from rfl).trans
    ((shapeCast_self _ _).trans
      (funext fun i => (truncf_apply (core x w b) bitsLt_bf16_f32 i).trans (congrFun (proj_core x w b) i)))
theorem pay5_eq (x : Vec Ideal S1x1024x768 .f32) (w : Vec Ideal S768x768 .f32) (b : Vec Ideal S1x768 .f32) :
    k0_pay5 (F := Ideal) x w b = projBlk x w b :=
  (show k0_pay5 (F := Ideal) x w b
      = shapeCast S1024x768 (truncf .bf16 (core x w b) bitsLt_bf16_f32) shapeCasts_S1024x768_S1024x768 from rfl).trans
    ((shapeCast_self _ _).trans
      (funext fun i => (truncf_apply (core x w b) bitsLt_bf16_f32 i).trans (congrFun (proj_core x w b) i)))
theorem pay6_eq (x : Vec Ideal S1x1024x768 .f32) (w : Vec Ideal S768x768 .f32) (b : Vec Ideal S1x768 .f32) :
    k0_pay6 (F := Ideal) (k0_pay3 x w b) = projBlk x w b :=
  (show k0_pay6 (F := Ideal) (k0_pay3 x w b)
      = shapeCast S1024x768 (truncf .bf16 (core x w b) bitsLt_bf16_f32) shapeCasts_S1024x768_S1024x768 from rfl).trans
    ((shapeCast_self _ _).trans
      (funext fun i => (truncf_apply (core x w b) bitsLt_bf16_f32 i).trans (congrFun (proj_core x w b) i)))

/-! ## The twelve heads are one function

The body is printed in consecutive parts, and a head that straddles two parts is printed as a composition of shorter
terms; each composition is, by unfolding, the head function of the same three slices. -/

variable {F : FTy → Type} [FloatOps F]

theorem pay10_eq (q k v : Vec F S1024x64 .bf16) : k0_pay10 v (k0_pay8 q k) (k0_pay9 q k) = k0_pay7 q k v := rfl
theorem pay18_eq (q k v : Vec F S1024x64 .bf16) : k0_pay18 v (k0_pay16 q k) (k0_pay17 q k) = k0_pay7 q k v := rfl
theorem pay1_eq (q k v : Vec F S1024x64 .bf16) : k0_pay1 v (k0_pay24 q k) (k0_pay25 q k) = k0_pay7 q k v := rfl
theorem pay14_eq (q k v : Vec F S1024x64 .bf16) : k0_pay14 (k0_pay13 q k v) = k0_pay7 q k v := rfl
theorem pay22_eq (q k v : Vec F S1024x64 .bf16) : k0_pay22 (k0_pay21 q k v) = k0_pay7 q k v := rfl
theorem pay11_eq (q k v : Vec F S1024x64 .bf16) : k0_pay11 q k v = k0_pay7 q k v := rfl
theorem pay12_eq (q k v : Vec F S1024x64 .bf16) : k0_pay12 q k v = k0_pay7 q k v := rfl
theorem pay15_eq (q k v : Vec F S1024x64 .bf16) : k0_pay15 q k v = k0_pay7 q k v := rfl
theorem pay19_eq (q k v : Vec F S1024x64 .bf16) : k0_pay19 q k v = k0_pay7 q k v := rfl
theorem pay20_eq (q k v : Vec F S1024x64 .bf16) : k0_pay20 q k v = k0_pay7 q k v := rfl
theorem pay23_eq (q k v : Vec F S1024x64 .bf16) : k0_pay23 q k v = k0_pay7 q k v := rfl

end Cert.KernelIdeal.Head

end
-- ==== Proof.KBlock.lean ====
/-
  What one grid point leaves in the output block.

  At a grid point the body holds one batch entry x : [1, 1024, 768], the three transposed weights and the three bias
  rows. It writes the projected queries, keys and values into three scratch buffers, reads them back 64 columns at a
  time, and stores head h's result into columns 64h … 64h + 63 of the output block. The twelve stores tile the block,
  and each is the tile of ONE function of the block's index: entry (0, r, j) is column j mod 64 of head j / 64, computed
  from the projected rows.
-/
import proofs.«136178_j10746008174892_2_alg».proof.Proof.KHead
import proofs.«136178_j10746008174892_2_alg».proof.Proof.Gen.KernelIdeal.Value
import Idealize.ShloMosaic.Lib.Pipeline.Value
import Idealize.ShloMosaic.Lib.Tactic

set_option maxRecDepth 16384

noncomputable section

open scoped BigOperators

namespace Cert.KernelIdeal.Block

open Cert.KernelIdeal Cert.KernelIdeal.Gen Idealize.ShloMosaic Idealize.ShloMosaic.TcCoe Idealize.SL.Sem
open Idealize.ShloMosaic.ValueIdx Cert.Attn Cert.KernelIdeal.Head

theorem hz2 : (![0, 0] : Fin 2 → Nat) = fun _ => 0 := funext fun a => by fin_cases a <;> rfl
theorem hz3 : (![0, 0, 0] : Fin 3 → Nat) = fun _ => 0 := funext fun a => by fin_cases a <;> rfl

/-- Entry (r, d) of head h from the projected rows Q, K, V of one batch entry. -/
def headBlk (Q K V : S1024x768.Idx → EReal) (h : Fin 12) (r : Fin 1024) (d : Fin 64) : EReal :=
  attnRow (fun t : Fin 1024 => (∑ e : Fin 64, Q (ix2 r (col h e)) * K (ix2 t (col h e))) * Ideal.ofBits .f32 0x3E000000#32)
    (fun t : Fin 1024 => V (ix2 t (col h d)))

/-- Entry (r, j) of the output block: column j mod 64 of head j / 64. -/
def blockAt (Q K V : S1024x768.Idx → EReal) (r : Fin 1024) (j : Fin 768) : EReal :=
  headBlk Q K V ⟨j.val / 64, by have := j.isLt; omega⟩ r ⟨j.val % 64, Nat.mod_lt _ (by norm_num)⟩

/-- Column d of head h is column 64h + d of the block. -/
theorem blockAt_col (Q K V : S1024x768.Idx → EReal) (r : Fin 1024) (h : Fin 12) (d : Fin 64) :
    blockAt Q K V r (col h d) = headBlk Q K V h r d := by
  have hh := h.isLt
  have hd := d.isLt
  unfold blockAt
  congr 1
  · exact Fin.ext (by show (64 * h.val + d.val) / 64 = h.val; omega)
  · exact Fin.ext (by show (64 * h.val + d.val) % 64 = d.val; omega)

/-- The output block as one function of its index, from the body's seven loaded blocks. -/
def blockG (x0 : Vec Ideal S1x1024x768 .f32) (x1 x2 x3 : Vec Ideal S768x768 .f32) (x4 x5 x6 : Vec Ideal S1x768 .f32) :
    S1x1024x768.Idx → EReal := fun y =>
  blockAt (projBlk x0 x1 x4) (projBlk x0 x2 x5) (projBlk x0 x3 x6) (y 1) (y 2)

/-- The tile of 64 columns at offset 64h of a [1024, 768] buffer, at (r, e), is the buffer at (r, 64h + e). -/
theorem idx_tile (h : Fin 12) (inb : ∀ a, (![0, 64 * h.val] : Fin 2 → ℕ) a + (![1024, 64] : Fin 2 → ℕ) a ≤ S1024x768.size a)
    (r : Fin 1024) (e : Fin 64) :
    (Rect.unit (s := S1024x768) ![0, 64 * h.val] ![1024, 64] inb).idx (ix2 r e) = ix2 r (col h e) :=
  funext fun a => Fin.ext (by
    match a with
    | ⟨0, _⟩ => show 0 + 1 * r.val = r.val; omega
    | ⟨1, _⟩ => show 64 * h.val + 1 * e.val = 64 * h.val + e.val; omega)

/-- The tile at offset 64h of the [1, 1024, 768] block, at (0, r, d), is the block at (0, r, 64h + d). -/
theorem emb_tile (h : Fin 12)
    (inb : ∀ a, (![0, 0, 64 * h.val] : Fin 3 → ℕ) a + (![1, 1024, 64] : Fin 3 → ℕ) a ≤ S1x1024x768.size a)
    (r : Fin 1024) (d : Fin 64) :
    (Rect.unit (s := S1x1024x768) ![0, 0, 64 * h.val] ![1, 1024, 64] inb).emb (ix3 (0 : Fin 1) r d)
      = ix3 (0 : Fin 1) r (col h d) :=
  funext fun a => Fin.ext (by
    match a with
    | ⟨0, _⟩ => show 0 + 1 * 0 = 0; omega
    | ⟨1, _⟩ => show 0 + 1 * r.val = r.val; omega
    | ⟨2, _⟩ => show 64 * h.val + 1 * d.val = 64 * h.val + d.val; omega)

/-- ONE STORE: the head function of the three tiles at offset 64h of the projected rows is the tile at offset 64h of
    the block function. -/
theorem piece_ok (x0 : Vec Ideal S1x1024x768 .f32) (x1 x2 x3 : Vec Ideal S768x768 .f32) (x4 x5 x6 : Vec Ideal S1x768 .f32)
    (h : Fin 12) (off2 : Fin 2 → ℕ) (off3 : Fin 3 → ℕ) (h2 : off2 = ![0, 64 * h.val]) (h3 : off3 = ![0, 0, 64 * h.val])
    (inb2 : ∀ a, off2 a + (![1024, 64] : Fin 2 → ℕ) a ≤ S1024x768.size a)
    (inb3 : ∀ a, off3 a + (![1, 1024, 64] : Fin 3 → ℕ) a ≤ S1x1024x768.size a)
    (x : (Rect.unit (s := S1x1024x768) off3 ![1, 1024, 64] inb3).shape.Idx) :
    k0_pay7 (F := Ideal) (fun j => k0_pay4 x0 x1 x4 ((Rect.unit (s := S1024x768) off2 ![1024, 64] inb2).idx j))
        (fun j => k0_pay5 x0 x2 x5 ((Rect.unit (s := S1024x768) off2 ![1024, 64] inb2).idx j))
        (fun j => k0_pay6 (k0_pay3 x0 x3 x6) ((Rect.unit (s := S1024x768) off2 ![1024, 64] inb2).idx j)) x
      = blockG x0 x1 x2 x3 x4 x5 x6 ((Rect.unit (s := S1x1024x768) off3 ![1, 1024, 64] inb3).emb x) := by
  subst h2 h3
  obtain ⟨u, r, d, rfl⟩ : ∃ (u : Fin 1) (r : Fin 1024) (d : Fin 64), x = ix3 u r d := ⟨x 0, x 1, x 2, eq_ix3 x⟩
  obtain rfl : u = 0 := Subsingleton.elim _ _
  rw [head_apply, pay4_eq, pay5_eq, pay6_eq, emb_tile]
  simp only [idx_tile]
  exact (blockAt_col _ _ _ r h d).symm

end Cert.KernelIdeal.Block

end
-- ==== Proof.KOut.lean ====
/-
  The output block after the body, whole: the twelve stores' payloads are the twelve tiles of the block function, and
  together they cover the block.
-/
import proofs.«136178_j10746008174892_2_alg».proof.Proof.KBlock

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx Cert.Attn Cert.KernelIdeal.Head

set_option maxHeartbeats 1000000 in
/-- What the body leaves in the output's staging buffer, from the seven loaded blocks: the block function. The loads
    of the inputs read their buffers whole; a load of 64 columns of a scratch buffer reads those columns of what the
    one store before it wrote there. -/
theorem out_eq (c : Dev nD) (i : grid0.Coords) (arg1 : Memref sig .tc .vmem S1x1024x768 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S1x1024x768 .f32) (harg8 : arg8.IsWhole) (arg9 : Memref sig .tc .vmem S1024x768 .bf16) (harg9 : arg9.IsWhole) (arg10 : Memref sig .tc .vmem S1024x768 .bf16) (harg10 : arg10.IsWhole) (arg11 : Memref sig .tc .vmem S1024x768 .bf16) (harg11 : arg11.IsWhole) (x0 : Vec Ideal S1x1024x768 .f32) (x1 : Vec Ideal S768x768 .f32) (x2 : Vec Ideal S768x768 .f32) (x3 : Vec Ideal S768x768 .f32) (x4 : Vec Ideal S1x768 .f32) (x5 : Vec Ideal S1x768 .f32) (x6 : Vec Ideal S1x768 .f32) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 = blockG x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5 x6)]
  funext y
  refine View.canon_apply_of_pieces (blockG x0 x1 x2 x3 x4 x5 x6) _ ?_ y (cover0_A_7 c i arg1 harg1 arg2 harg2 arg3 harg3 arg4 harg4 arg5 harg5 arg6 harg6 arg7 harg7 arg8 harg8 arg9 harg9 arg10 harg10 arg11 harg11 x0 x1 x2 x3 x4 x5 x6 y)
  unfold kernelRun0_A
  dsimp only
  sl_unfold_words
  simp only [View.readAt_eq_ld, harg1.read_unread, harg2.read_unread, harg3.read_unread, harg4.read_unread,
    harg5.read_unread, harg6.read_unread, harg7.read_unread,
    View.ld_unit_zero (S := S1x1024x768) hz3, View.ld_unit_zero (S := S768x768) hz2, View.ld_unit_zero (S := S1x768) hz2,
    View.readCov_eq_canon', View.canon_unit_zero (S := S1024x768) hz2,
    pay10_eq, pay18_eq, pay1_eq, pay14_eq, pay22_eq, pay11_eq, pay12_eq, pay15_eq, pay19_eq, pay20_eq, pay23_eq]
  intro p hp
  simp only [List.mem_cons, List.mem_singleton, List.not_mem_nil, or_false] at hp
  rcases hp with rfl | rfl | rfl | rfl | rfl | rfl | rfl | rfl | rfl | rfl | rfl | rfl
  · intro x
    exact piece_ok x0 x1 x2 x3 x4 x5 x6 11 ![0, 704] ![0, 0, 704] rfl rfl inb_S1024x768_S1024x64_0_704
      inb_S1x1024x768_S1x1024x64_0_0_704 x
  · intro x
    exact piece_ok x0 x1 x2 x3 x4 x5 x6 10 ![0, 640] ![0, 0, 640] rfl rfl inb_S1024x768_S1024x64_0_640
      inb_S1x1024x768_S1x1024x64_0_0_640 x
  · intro x
    exact piece_ok x0 x1 x2 x3 x4 x5 x6 9 ![0, 576] ![0, 0, 576] rfl rfl inb_S1024x768_S1024x64_0_576
      inb_S1x1024x768_S1x1024x64_0_0_576 x
  · intro x
    exact piece_ok x0 x1 x2 x3 x4 x5 x6 8 ![0, 512] ![0, 0, 512] rfl rfl inb_S1024x768_S1024x64_0_512
      inb_S1x1024x768_S1x1024x64_0_0_512 x
  · intro x
    exact piece_ok x0 x1 x2 x3 x4 x5 x6 7 ![0, 448] ![0, 0, 448] rfl rfl inb_S1024x768_S1024x64_0_448
      inb_S1x1024x768_S1x1024x64_0_0_448 x
  · intro x
    exact piece_ok x0 x1 x2 x3 x4 x5 x6 6 ![0, 384] ![0, 0, 384] rfl rfl inb_S1024x768_S1024x64_0_384
      inb_S1x1024x768_S1x1024x64_0_0_384 x
  · intro x
    exact piece_ok x0 x1 x2 x3 x4 x5 x6 5 ![0, 320] ![0, 0, 320] rfl rfl inb_S1024x768_S1024x64_0_320
      inb_S1x1024x768_S1x1024x64_0_0_320 x
  · intro x
    exact piece_ok x0 x1 x2 x3 x4 x5 x6 4 ![0, 256] ![0, 0, 256] rfl rfl inb_S1024x768_S1024x64_0_256
      inb_S1x1024x768_S1x1024x64_0_0_256 x
  · intro x
    exact piece_ok x0 x1 x2 x3 x4 x5 x6 3 ![0, 192] ![0, 0, 192] rfl rfl inb_S1024x768_S1024x64_0_192
      inb_S1x1024x768_S1x1024x64_0_0_192 x
  · intro x
    exact piece_ok x0 x1 x2 x3 x4 x5 x6 2 ![0, 128] ![0, 0, 128] rfl rfl inb_S1024x768_S1024x64_0_128
      inb_S1x1024x768_S1x1024x64_0_0_128 x
  · intro x
    exact piece_ok x0 x1 x2 x3 x4 x5 x6 1 ![0, 64] ![0, 0, 64] rfl rfl inb_S1024x768_S1024x64_0_64
      inb_S1x1024x768_S1x1024x64_0_0_64 x
  · intro x
    exact piece_ok x0 x1 x2 x3 x4 x5 x6 0 ![0, 0] ![0, 0, 0] rfl rfl inb_S1024x768_S1024x64_0_0
      inb_S1x1024x768_S1x1024x64_0_0_0 x

end Cert.KernelIdeal.Block

end
-- ==== Proof.KInputs.lean ====
/-
  What the kernel's seven input windows hold at a grid point, in terms of the argument arrays.

  The grid has 8 points, one per batch entry. Before the region the three weight matrices are transposed and the three
  bias vectors are regrouped as single rows. At point t:

    window 0  holds batch entry t of the input: its block's entry (0, s, i) is x(t, s, i);
    windows 1, 2, 3  hold the whole transposed weights: entry (i, j) is W(j, i);
    windows 4, 5, 6  hold the whole bias rows: entry (0, j) is b(j).

  A block's coordinate in its array is the block index times the block's extent plus the coordinate inside the block;
  the block indices are (t, 0, 0) for window 0 and (0, 0) for the others, at every point.
-/
import proofs.«136178_j10746008174892_2_alg».proof.Proof.Gen.KernelIdeal.Value
import Idealize.ShloMosaic.Lib.StableHlo.Run
import Idealize.ShloMosaic.Lib.Pipeline.Value
import Idealize.ShloMosaic.Lib.ValueIdx

noncomputable section

namespace Cert.KernelIdeal.Inputs

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The grid point t is one of the 8 batch entries. -/
theorem point_lt (t : Fin cfg0.N) : t.val < 8 := by
  have h : t.val < grid0.N := t.isLt
  rw [N_0] at h
  exact h

/-- Window 0's block index at point t is (t, 0, 0). -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The block of the batch at point t: batch entry t. -/
theorem in0 (c : Dev nD) (t : Fin cfg0.N) :
    (iblk m c 0 t : Vec Ideal S1x1024x768 .f32)
      = fun y => m ((c : Thread nD τ).loc main_arg0) (ix3 (⟨t.val, point_lt t⟩ : Fin 8) (y 1) (y 2)) := by
  have hi := index0 t
  funext y
  unfold iblk
  rw [View.read_apply]
  show V m c main_arg0 _ = _
  rw [V_main_arg0]
  congr 1
  funext a
  apply Fin.ext
  have h0 : (y 0).val < 1 := (y 0).isLt
  match a with
  | ⟨0, _⟩ => show win0_0.index t 0 * 1 + 1 * (y 0).val = t.val; rw [hi.1]; omega
  | ⟨1, _⟩ => show win0_0.index t 1 * 1024 + 1 * (y 1).val = (y 1).val; rw [hi.2.1]; omega
  | ⟨2, _⟩ => show win0_0.index t 2 * 768 + 1 * (y 2).val = (y 2).val; rw [hi.2.2]; omega

/-! ## The weights: each window holds the whole transposed matrix -/

/-- The first weight's window has block index (0, 0) at every point. -/
theorem index1 : ∀ t : Fin cfg0.N, win0_1.index t 0 = 0 ∧ win0_1.index t 1 = 0 :=
  (by decide +kernel : ∀ t : Fin grid0.N, win0_1.index t 0 = 0 ∧ win0_1.index t 1 = 0)
/-- The same for the second weight's window. -/
theorem index2 : ∀ t : Fin cfg0.N, win0_2.index t 0 = 0 ∧ win0_2.index t 1 = 0 :=
  (by decide +kernel : ∀ t : Fin grid0.N, win0_2.index t 0 = 0 ∧ win0_2.index t 1 = 0)
/-- The same for the third weight's window. -/
theorem index3 : ∀ t : Fin cfg0.N, win0_3.index t 0 = 0 ∧ win0_3.index t 1 = 0 :=
  (by decide +kernel : ∀ t : Fin grid0.N, win0_3.index t 0 = 0 ∧ win0_3.index t 1 = 0)

/-- What the region finds in the first transposed weight. -/
theorem V_v0 (c : Dev nD) : (V m c main_v0 : S768x768.Idx → EReal)
    = transpose S768x768 [1, 0] (m ((c : Thread nD τ).loc main_arg1)) transposes_S768x768_S768x768_1_0 := by
  dsimp only [Gen.V, Gen.hostOps0]; after_results
/-- What the region finds in the second transposed weight. -/
theorem V_v1 (c : Dev nD) : (V m c main_v1 : S768x768.Idx → EReal)
    = transpose S768x768 [1, 0] (m ((c : Thread nD τ).loc main_arg3)) transposes_S768x768_S768x768_1_0 := by
  dsimp only [Gen.V, Gen.hostOps0]; after_results
/-- What the region finds in the third transposed weight. -/
theorem V_v2 (c : Dev nD) : (V m c main_v2 : S768x768.Idx → EReal)
    = transpose S768x768 [1, 0] (m ((c : Thread nD τ).loc main_arg5)) transposes_S768x768_S768x768_1_0 := by
  dsimp only [Gen.V, Gen.hostOps0]; after_results

/-- A transposed [768, 768] matrix read at (a, b) is the matrix at (b, a). -/
theorem transpose_at (x : S768x768.Idx → EReal) (j : S768x768.Idx) :
    transpose S768x768 [1, 0] x transposes_S768x768_S768x768_1_0 j = x (ix2 (j 1) (j 0)) :=
  transpose_apply [1, 0] x transposes_S768x768_S768x768_1_0 j (ix2 (j 1) (j 0)) (fun b => match b with
    | ⟨0, _⟩ => rfl
    | ⟨1, _⟩ => rfl)

/-- The first weight's window: the whole matrix, transposed. -/
theorem in1 (c : Dev nD) (t : Fin cfg0.N) :
    (iblk m c 1 t : Vec Ideal S768x768 .f32)
      = fun y => m ((c : Thread nD τ).loc main_arg1) (ix2 (y 1) (y 0)) := by
  have hi := index1 t
  funext y
  unfold iblk
  rw [View.read_apply]
  show V m c main_v0 _ = _
  rw [V_v0, transpose_at]
  congr 1
  funext a
  apply Fin.ext
  match a with
  | ⟨0, _⟩ => show win0_1.index t 1 * 768 + 1 * (y 1).val = (y 1).val; rw [hi.2]; omega
  | ⟨1, _⟩ => show win0_1.index t 0 * 768 + 1 * (y 0).val = (y 0).val; rw [hi.1]; omega

/-- The second weight's window: the whole matrix, transposed. -/
theorem in2 (c : Dev nD) (t : Fin cfg0.N) :
    (iblk m c 2 t : Vec Ideal S768x768 .f32)
      = fun y => m ((c : Thread nD τ).loc main_arg3) (ix2 (y 1) (y 0)) := by
  have hi := index2 t
  funext y
  unfold iblk
  rw [View.read_apply]
  show V m c main_v1 _ = _
  rw [V_v1, transpose_at]
  congr 1
  funext a
  apply Fin.ext
  match a with
  | ⟨0, _⟩ => show win0_2.index t 1 * 768 + 1 * (y 1).val = (y 1).val; rw [hi.2]; omega
  | ⟨1, _⟩ => show win0_2.index t 0 * 768 + 1 * (y 0).val = (y 0).val; rw [hi.1]; omega

/-- The third weight's window: the whole matrix, transposed. -/
theorem in3 (c : Dev nD) (t : Fin cfg0.N) :
    (iblk m c 3 t : Vec Ideal S768x768 .f32)
      = fun y => m ((c : Thread nD τ).loc main_arg5) (ix2 (y 1) (y 0)) := by
  have hi := index3 t
  funext y
  unfold iblk
  rw [View.read_apply]
  show V m c main_v2 _ = _
  rw [V_v2, transpose_at]
  congr 1
  funext a
  apply Fin.ext
  match a with
  | ⟨0, _⟩ => show win0_3.index t 1 * 768 + 1 * (y 1).val = (y 1).val; rw [hi.2]; omega
  | ⟨1, _⟩ => show win0_3.index t 0 * 768 + 1 * (y 0).val = (y 0).val; rw [hi.1]; omega

/-! ## The biases: each window holds the whole bias as one row -/

/-- The bias windows' block index is (0, 0) at every point. -/
theorem index4 : ∀ t : Fin cfg0.N, win0_4.index t 0 = 0 ∧ win0_4.index t 1 = 0 :=
  (by decide +kernel : ∀ t : Fin grid0.N, win0_4.index t 0 = 0 ∧ win0_4.index t 1 = 0)
/-- The same for the second bias's window. -/
theorem index5 : ∀ t : Fin cfg0.N, win0_5.index t 0 = 0 ∧ win0_5.index t 1 = 0 :=
  (by decide +kernel : ∀ t : Fin grid0.N, win0_5.index t 0 = 0 ∧ win0_5.index t 1 = 0)
/-- The same for the third bias's window. -/
theorem index6 : ∀ t : Fin cfg0.N, win0_6.index t 0 = 0 ∧ win0_6.index t 1 = 0 :=
  (by decide +kernel : ∀ t : Fin grid0.N, win0_6.index t 0 = 0 ∧ win0_6.index t 1 = 0)

/-- What the region finds in the first bias row. -/
theorem V_v3 (c : Dev nD) : (V m c main_v3 : S1x768.Idx → EReal)
    = shapeCast S1x768 (m ((c : Thread nD τ).loc main_arg2)) shapeCasts_S768_S1x768 := by
  dsimp only [Gen.V, Gen.hostOps0]; after_results; rfl
/-- What the region finds in the second bias row. -/
theorem V_v4 (c : Dev nD) : (V m c main_v4 : S1x768.Idx → EReal)
    = shapeCast S1x768 (m ((c : Thread nD τ).loc main_arg4)) shapeCasts_S768_S1x768 := by
  dsimp only [Gen.V, Gen.hostOps0]; after_results; rfl
/-- What the region finds in the third bias row. -/
theorem V_v5 (c : Dev nD) : (V m c main_v5 : S1x768.Idx → EReal)
    = shapeCast S1x768 (m ((c : Thread nD τ).loc main_arg6)) shapeCasts_S768_S1x768 := by
  dsimp only [Gen.V, Gen.hostOps0]; after_results; rfl

/-- A [768] vector regrouped as [1, 768] and read at (0, b) is the vector at b: the two positions are one row-major
    position. -/
theorem reshape_at (x : S768.Idx → EReal) (j : S1x768.Idx) :
    shapeCast S1x768 x shapeCasts_S768_S1x768 j = x (ix1 (j 1)) :=
  shapeCast_apply x shapeCasts_S768_S1x768 j (ix1 (j 1)) (by
    rw [Shape.rowMajor_val_one, Shape.rowMajor_val_two]
    have h0 : (j 0).val < 1 := (j 0).isLt
    show (j 1).val = (j 0).val * 768 + (j 1).val
    omega)

/-- The first bias's window: the whole vector, as one row. -/
theorem in4 (c : Dev nD) (t : Fin cfg0.N) :
    (iblk m c 4 t : Vec Ideal S1x768 .f32) = fun y => m ((c : Thread nD τ).loc main_arg2) (ix1 (y 1)) := by
  have hi := index4 t
  funext y
  unfold iblk
  rw [View.read_apply]
  show V m c main_v3 _ = _
  rw [V_v3, reshape_at]
  congr 1
  funext a
  apply Fin.ext
  match a with
  | ⟨0, _⟩ => show win0_4.index t 1 * 768 + 1 * (y 1).val = (y 1).val; rw [hi.2]; omega

/-- The second bias's window: the whole vector, as one row. -/
theorem in5 (c : Dev nD) (t : Fin cfg0.N) :
    (iblk m c 5 t : Vec Ideal S1x768 .f32) = fun y => m ((c : Thread nD τ).loc main_arg4) (ix1 (y 1)) := by
  have hi := index5 t
  funext y
  unfold iblk
  rw [View.read_apply]
  show V m c main_v4 _ = _
  rw [V_v4, reshape_at]
  congr 1
  funext a
  apply Fin.ext
  match a with
  | ⟨0, _⟩ => show win0_5.index t 1 * 768 + 1 * (y 1).val = (y 1).val; rw [hi.2]; omega

/-- The third bias's window: the whole vector, as one row. -/
theorem in6 (c : Dev nD) (t : Fin cfg0.N) :
    (iblk m c 6 t : Vec Ideal S1x768 .f32) = fun y => m ((c : Thread nD τ).loc main_arg6) (ix1 (y 1)) := by
  have hi := index6 t
  funext y
  unfold iblk
  rw [View.read_apply]
  show V m c main_v5 _ = _
  rw [V_v5, reshape_at]
  congr 1
  funext a
  apply Fin.ext
  match a with
  | ⟨0, _⟩ => show win0_6.index t 1 * 768 + 1 * (y 1).val = (y 1).val; rw [hi.2]; omega

end Cert.KernelIdeal.Inputs

end
-- ==== Proof.KFinal.lean ====
/-
  The kernel's result array.

  Grid point t handles batch entry t: its input block is x(t, ·, ·), the weights and biases are read whole at every
  point, and what it writes back is block (t, 0, 0) of the attention function G of the argument arrays. The eight blocks
  cover the [8, 1024, 768] result, so after the run the result array is G of the arguments.
-/
import proofs.«136178_j10746008174892_2_alg».proof.Proof.KOut
import proofs.«136178_j10746008174892_2_alg».proof.Proof.KInputs
import proofs.«136178_j10746008174892_2_alg».proof.Proof.Gen.KernelIdeal.Value
import Idealize.ShloMosaic.Lib.Pipeline.Value

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Attn Cert.KernelIdeal.Head Cert.KernelIdeal.Block

variable (m : (ℓ : Loc nD τ sig) → Buf (Elt Ideal) ℓ) (ρ : Dev nD → PrngReg)

/-- The attention function of the argument arrays, as contents of the result array. -/
abbrev result (c : Dev nD) : Buf (Elt Ideal) ((c : Thread nD τ).loc main_v6) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The block function of batch entry β's rows, the transposed weights and the bias rows is G at batch entry β. -/
theorem blockG_eq_G (X : S8x1024x768.Idx → EReal) (Wq Wk Wv : S768x768.Idx → EReal) (bq bk bv : S768.Idx → EReal)
    (β : Fin 8) (y : S1x1024x768.Idx) :
    blockG (fun z => X (ix3 β (z 1) (z 2))) (fun z => Wq (ix2 (z 1) (z 0))) (fun z => Wk (ix2 (z 1) (z 0)))
        (fun z => Wv (ix2 (z 1) (z 0))) (fun z => bq (ix1 (z 1))) (fun z => bk (ix1 (z 1))) (fun z => bv (ix1 (z 1))) y
      = G X Wq bq Wk bk Wv bv (ix3 β (y 1) (y 2)) := rfl

/-- The output's block index at point t is (t, 0, 0). -/
theorem idx_out : ∀ t : Fin cfg0.N, win0_7.index t (0 : Fin 3) = t.val ∧ win0_7.index t (1 : Fin 3) = 0
    ∧ win0_7.index t (2 : Fin 3) = 0 :=
  (by decide +kernel : ∀ t : Fin grid0.N, _)

theorem lt8 (t : Fin cfg0.N) : t.val < 8 := lt_of_lt_of_eq t.isLt N_0

/-- WHAT POINT t WRITES BACK is block t of the attention function of the arguments. -/
theorem flushed_eq (c : Dev nD) (t : Fin cfg0.N) :
    (dats m 0 c).flushed 7 t = ((cfg0.win 7).blk t).view.read (Elt Ideal) (result m c) := by
  rw [Value.flushed7_A, out_eq, Cert.KernelIdeal.Inputs.in0, Cert.KernelIdeal.Inputs.in1, Cert.KernelIdeal.Inputs.in2,
    Cert.KernelIdeal.Inputs.in3, Cert.KernelIdeal.Inputs.in4, Cert.KernelIdeal.Inputs.in5, Cert.KernelIdeal.Inputs.in6]
  obtain ⟨e0, e1, e2⟩ := idx_out t
  funext j
  show blockG _ _ _ _ _ _ _ j = result m c (((cfg0.win 7).blk t).view.emb j)
  have hj0 : (j 0).val < 1 := (j 0).isLt
  have he : ((cfg0.win 7).blk t).view.emb j = ix3 (⟨t.val, lt8 t⟩ : Fin 8) (j 1) (j 2) := by
    funext a; apply Fin.ext
    match a with
    | ⟨0, _⟩ => show win0_7.index t (0 : Fin 3) * 1 + 1 * (j 0).val = t.val; omega
    | ⟨1, _⟩ => show win0_7.index t (1 : Fin 3) * 1024 + 1 * (j 1).val = (j 1).val; omega
    | ⟨2, _⟩ => show win0_7.index t (2 : Fin 3) * 768 + 1 * (j 2).val = (j 2).val; omega
  rw [he]
  exact blockG_eq_G _ _ _ _ _ _ _ ⟨t.val, lt8 t⟩ j

/-- An index of the result is in point t's block iff each coordinate is in the block's range on its axis. -/
theorem mem_blk (t : Fin cfg0.N) (i : S8x1024x768.Idx) :
    i ∈ ((cfg0.win 7).blk t).view.set ↔ ∀ a : Fin 3, win0_7.index t a * S1x1024x768.size a ≤ (i a).val
      ∧ (i a).val < win0_7.index t a * S1x1024x768.size a + S1x1024x768.size a := by
  show i ∈ ((View.whole main_v6).slice (win0_7.rect t)).set ↔ _
  rw [View.set_slice_whole, Rect.mem_set_unit]
  exact Iff.rfl

/-- The result array after the run is the attention function of the arguments: entry (β, s, j) lies in point β's block. -/
theorem final (c : Dev nD) : (dats m 0 c).arrAt 7 cfg0.N = result m c :=
  (dats m 0 c).arrAt_eq_of_cover 7 (result m c) (fun t _ => flushed_eq m c t) fun i => by
    have h0 : (i 0).val < 8 := (i 0).isLt
    have h1 : (i 1).val < 1024 := (i 1).isLt
    have h2 : (i 2).val < 768 := (i 2).isLt
    have hN : (i 0).val < cfg0.N := lt_of_lt_of_eq h0 N_0.symm
    obtain ⟨e0, e1, e2⟩ := idx_out ⟨(i 0).val, hN⟩
    have e0' : win0_7.index ⟨(i 0).val, hN⟩ (0 : Fin 3) = (i 0).val := e0
    refine ⟨⟨(i 0).val, hN⟩, flush0_7 _, ?_⟩
    rw [mem_blk]
    intro a
    match a with
    | ⟨0, _⟩ => show win0_7.index ⟨(i 0).val, hN⟩ (0 : Fin 3) * 1 ≤ (i 0).val ∧ (i 0).val < win0_7.index ⟨(i 0).val, hN⟩ (0 : Fin 3) * 1 + 1; rw [e0']; omega
    | ⟨1, _⟩ => show win0_7.index ⟨(i 0).val, hN⟩ (1 : Fin 3) * 1024 ≤ (i 1).val ∧ (i 1).val < win0_7.index ⟨(i 0).val, hN⟩ (1 : Fin 3) * 1024 + 1024; rw [e1]; omega
    | ⟨2, _⟩ => show win0_7.index ⟨(i 0).val, hN⟩ (2 : Fin 3) * 768 ≤ (i 2).val ∧ (i 2).val < win0_7.index ⟨(i 0).val, hN⟩ (2 : Fin 3) * 768 + 768; rw [e2]; omega

/-- The run, read: the result array at the attention function of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Final

end
-- ==== Proof.RefIsG.lean ====
/-
  The reference computes G.

  The reference forms three linear layers x Wᵀ + b, regroups the 768 columns of each as 12 heads of 64 (column 64h + e
  is column e of head h) with the head axis moved ahead of the row axis, multiplies queries against keys over a head's
  64 columns, divides by √64, takes a softmax along each row (the row's maximum — a fold of max from −∞, then a maximum
  with −∞ once more —, the exponentials of the differences, their sum from 0, the quotients), multiplies the
  probabilities against the values, and moves the head axis back and merges it with the column axis.

  Each stage is read here at explicit coordinates and identified with the matching piece of the specification:
  the linear layer (proj), the scaled score (score; dividing by √64 is multiplying by the word of 1/8), the row maximum
  (rowMax; max(−∞, m) = m), the softmax-weighted sum (attnRow; 0 + Σ = Σ), one head's output (headAt), and last the whole
  result G, where entry (β, s, j) is column j mod 64 of head j / 64. Every sum on the two sides runs over the same index
  set in the same arrangement, so nothing is asked of the inputs.
-/
import proofs.«136178_j10746008174892_2_alg».proof.Proof.Spec
import proofs.«136178_j10746008174892_2_alg».proof.Proof.Gen.ReferenceIdeal.Read

noncomputable section

open scoped BigOperators

namespace Cert.ReferenceIdeal.RefValue

open Cert.ReferenceIdeal Cert.ReferenceIdeal.Gen Cert.ReferenceIdeal.Read Cert.Attn
open Idealize.ShloMosaic Idealize.ShloMosaic.ValueIdx

/-- A batch of rows: an [8, 1024, 768] array of extended reals. -/
abbrev Rows := (⟨S8x1024x768, .f32⟩ : BufTy).Contents (Elt Ideal)
/-- A weight matrix: a [768, 768] array of extended reals. -/
abbrev Mat := (⟨S768x768, .f32⟩ : BufTy).Contents (Elt Ideal)
/-- A bias vector: a [768] array of extended reals. -/
abbrev Vec := (⟨S768, .f32⟩ : BufTy).Contents (Elt Ideal)

/-! ## Index arithmetic of the two reshapes -/

/-- Splitting the last axis: position (β, s, h, e) of [8, 1024, 12, 64] is position (β, s, 64h + e) of [8, 1024, 768]. -/
theorem split_idx (β : Fin 8) (s : Fin 1024) (h : Fin 12) (e : Fin 64) :
    idx_main_v4 (ix4 β s h e) = ix3 β s (col h e) := by
  funext a; apply Fin.ext
  have h0 : β.val < 8 := β.isLt
  have h1 : s.val < 1024 := s.isLt
  have h2 : h.val < 12 := h.isLt
  have h3 : e.val < 64 := e.isLt
  match a with
  | ⟨0, _⟩ => show (((β.val * 1024 + s.val) * 12 + h.val) * 64 + e.val) / 786432 = β.val; omega
  | ⟨1, _⟩ => show (((β.val * 1024 + s.val) * 12 + h.val) * 64 + e.val) / 768 % 1024 = s.val; omega
  | ⟨2, _⟩ => show (((β.val * 1024 + s.val) * 12 + h.val) * 64 + e.val) % 768 = 64 * h.val + e.val; omega

/-- Swapping the two middle axes. -/
theorem swap_idx (β : Fin 8) (h : Fin 12) (s : Fin 1024) (e : Fin 64) :
    idx_main_v5 (ix4 β h s e) = ix4 β s h e := by
  funext a
  match a with
  | ⟨0, _⟩ => rfl
  | ⟨1, _⟩ => rfl
  | ⟨2, _⟩ => rfl
  | ⟨3, _⟩ => rfl

/-! ## The three linear layers -/

/-- x Wᵀ + b at (β, s, j). -/
theorem v3_eq (x0 : Rows) (x1 : Mat) (x2 : Vec) (β : Fin 8) (s : Fin 1024) (j : Fin 768) :
    val_main_v3 (F := Ideal) x0 x1 x2 (ix3 β s j) = proj x0 x1 x2 β s j := by
  rw [val_main_v3_apply, val_main_v0_apply, val_main_v2_apply, val_main_v1_apply, Ideal.addf_def]
  unfold proj
  have el : ∀ k : Fin 768, lidx_main_v0 (ix3 β s j) k = ix3 β s k := fun k => by
    funext a
    match a with
    | ⟨0, _⟩ => rfl
    | ⟨1, _⟩ => rfl
    | ⟨2, _⟩ => rfl
  have er : ∀ k : Fin 768, ridx_main_v0 (ix3 β s j) k = ix2 j k := fun k => by
    funext a
    match a with
    | ⟨0, _⟩ => rfl
    | ⟨1, _⟩ => rfl
  have eb : idx_main_v1 (idx_main_v2 (ix3 β s j)) = ix1 j := by
    funext a
    match a with
    | ⟨0, _⟩ => rfl
  rw [eb]
  congr 1
  exact Finset.sum_congr rfl fun k _ => by rw [el, er]

/-- The query layer, head-major: entry (β, h, s, e) is the linear layer at (β, s, 64h + e). -/
theorem v5_eq (x0 : Rows) (x1 : Mat) (x2 : Vec) (β : Fin 8) (h : Fin 12) (s : Fin 1024) (e : Fin 64) :
    val_main_v5 (F := Ideal) x0 x1 x2 (ix4 β h s e) = proj x0 x1 x2 β s (col h e) := by
  rw [val_main_v5_apply, val_main_v4_apply, swap_idx, split_idx, v3_eq]

/-- The key layer, head-major. -/
theorem v11_eq (x0 : Rows) (x3 : Mat) (x4 : Vec) (β : Fin 8) (h : Fin 12) (s : Fin 1024) (e : Fin 64) :
    val_main_v11 (F := Ideal) x0 x3 x4 (ix4 β h s e) = proj x0 x3 x4 β s (col h e) :=
  v5_eq x0 x3 x4 β h s e

/-- The value layer, head-major. -/
theorem v17_eq (x0 : Rows) (x5 : Mat) (x6 : Vec) (β : Fin 8) (h : Fin 12) (s : Fin 1024) (e : Fin 64) :
    val_main_v17 (F := Ideal) x0 x5 x6 (ix4 β h s e) = proj x0 x5 x6 β s (col h e) :=
  v5_eq x0 x5 x6 β h s e

/-! ## The scaled scores -/

/-- Entry (β, h, s, t) of the scaled scores: the products over the head's 64 columns, times the word of 1/8. -/
theorem v21_eq (x0 : Rows) (x1 : Mat) (x2 : Vec) (x3 : Mat) (x4 : Vec)
    (β : Fin 8) (h : Fin 12) (s t : Fin 1024) :
    val_main_v21 (F := Ideal) x0 x1 x2 x3 x4 (ix4 β h s t)
      = score (proj x0 x1 x2 β) (proj x0 x3 x4 β) h s t := by
  rw [val_main_v21_apply, val_main_v18_apply, val_main_v20_apply, val_main_v19_apply, val_main_cst_apply,
    Ideal.hostDivf_def, Ideal.hostUnary_sqrt_def, Ideal.ofBits_def, div_sqrt_64]
  unfold score
  have el : ∀ k : Fin 64, lidx_main_v18 (ix4 β h s t) k = ix4 β h s k := fun k => by
    funext a
    match a with
    | ⟨0, _⟩ => rfl
    | ⟨1, _⟩ => rfl
    | ⟨2, _⟩ => rfl
    | ⟨3, _⟩ => rfl
  have er : ∀ k : Fin 64, ridx_main_v18 (ix4 β h s t) k = ix4 β h t k := fun k => by
    funext a
    match a with
    | ⟨0, _⟩ => rfl
    | ⟨1, _⟩ => rfl
    | ⟨2, _⟩ => rfl
    | ⟨3, _⟩ => rfl
  congr 1
  exact Finset.sum_congr rfl fun k _ => by rw [el, er, v5_eq, v11_eq]

/-! ## The row maximum -/

/-- A reduced index (β, h, s) with t put back on the last axis is (β, h, s, t). -/
theorem lift_last (hr : S8x12x1024x1024.Reduces [3] S8x12x1024) (β : Fin 8) (h : Fin 12) (s t : Fin 1024) :
    hr.lift (ix3 β h s) t = ix4 β h s t :=
  funext fun a => Fin.ext (by
    match a with
    | ⟨0, _⟩ => rfl
    | ⟨1, _⟩ => rfl
    | ⟨2, _⟩ => rfl
    | ⟨3, _⟩ => rfl)

/-- The maximum with −∞ on the left changes nothing. -/
theorem max_neg_inf (m : EReal) : max (Ideal.ofBits .f32 0xFF800000#32) m = m := by
  rw [ofBits_neg_inf]; exact max_bot_left m

/-- The reduce by maximum along the last axis, at (β, h, s): the fold of max from −∞ over the row of scaled scores. -/
theorem v22_eq (x0 : Rows) (x1 : Mat) (x2 : Vec) (x3 : Mat) (x4 : Vec) (β : Fin 8) (h : Fin 12) (s : Fin 1024) :
    val_main_v22 (F := Ideal) x0 x1 x2 x3 x4 (ix3 β h s)
      = rowMax (fun t => score (proj x0 x1 x2 β) (proj x0 x3 x4 β) h s t) := by
  have hr : S8x12x1024x1024.Reduces [3] S8x12x1024 := by decide
  unfold val_main_v22
  rw [Host.reduce_eq_fold_single FloatOps.maximumf _ _ reducesTo_S8x12x1024x1024_S8x12x1024_d3 hr h_S_ (ix3 β h s)]
  unfold rowMax
  show (Finset.univ : Finset (Fin 1024)).fold max (Ideal.ofBits .f32 0xFF800000#32)
      (val_main_v21 (F := Ideal) x0 x1 x2 x3 x4 ∘ hr.lift (ix3 β h s)) = _
  refine congrArg (fun g => (Finset.univ : Finset (Fin 1024)).fold max (Ideal.ofBits .f32 0xFF800000#32) g)
    (funext fun (t : Fin 1024) => ?_)
  exact (congrArg (val_main_v21 (F := Ideal) x0 x1 x2 x3 x4) (lift_last hr β h s t)).trans
    (v21_eq x0 x1 x2 x3 x4 β h s t)

/-- The maximum of −∞ and the reduce, at (β, h, s): still the row maximum. -/
theorem v24_eq (x0 : Rows) (x1 : Mat) (x2 : Vec) (x3 : Mat) (x4 : Vec) (β : Fin 8) (h : Fin 12) (s : Fin 1024) :
    val_main_v24 (F := Ideal) x0 x1 x2 x3 x4 (ix3 β h s)
      = rowMax (fun t => score (proj x0 x1 x2 β) (proj x0 x3 x4 β) h s t) := by
  rw [val_main_v24_apply, val_main_v23_apply, val_main_cst_1_apply, Ideal.maximumf_def, Ideal.ofBits_def, max_neg_inf,
    v22_eq]

/-! ## The softmax and the weighted sum -/

/-- The row of scaled scores of query row s in head h of batch entry β. -/
abbrev scoreRow (x0 : Rows) (x1 : Mat) (x2 : Vec) (x3 : Mat) (x4 : Vec) (β : Fin 8) (h : Fin 12) (s : Fin 1024) :
    Fin 1024 → EReal :=
  fun t => score (proj x0 x1 x2 β) (proj x0 x3 x4 β) h s t

/-- The exponential of a score less its row's maximum. -/
theorem v28_eq (x0 : Rows) (x1 : Mat) (x2 : Vec) (x3 : Mat) (x4 : Vec) (β : Fin 8) (h : Fin 12) (s t : Fin 1024) :
    val_main_v28 (F := Ideal) x0 x1 x2 x3 x4 (ix4 β h s t)
      = Ideal.exp (scoreRow x0 x1 x2 x3 x4 β h s t - rowMax (scoreRow x0 x1 x2 x3 x4 β h s)) := by
  have e : idx_main_v25 (idx_main_v26 (ix4 β h s t)) = ix3 β h s := by
    funext a
    match a with
    | ⟨0, _⟩ => rfl
    | ⟨1, _⟩ => rfl
    | ⟨2, _⟩ => rfl
  rw [val_main_v28_apply, val_main_v27_apply, val_main_v26_apply, val_main_v25_apply, Ideal.hostUnary_exp_def,
    Ideal.subf_def, e, v21_eq, v24_eq]

/-- The sum of a row's exponentials: the zero word contributes nothing. -/
theorem v29_eq (x0 : Rows) (x1 : Mat) (x2 : Vec) (x3 : Mat) (x4 : Vec) (β : Fin 8) (h : Fin 12) (s : Fin 1024) :
    val_main_v29 (F := Ideal) x0 x1 x2 x3 x4 (ix3 β h s)
      = ∑ u : Fin 1024, Ideal.exp (scoreRow x0 x1 x2 x3 x4 β h s u - rowMax (scoreRow x0 x1 x2 x3 x4 β h s)) := by
  have e : ∀ k : Fin 1024, idx_main_v29 (ix3 β h s) k = ix4 β h s k := fun k => by
    funext a
    match a with
    | ⟨0, _⟩ => rfl
    | ⟨1, _⟩ => rfl
    | ⟨2, _⟩ => rfl
    | ⟨3, _⟩ => rfl
  rw [val_main_v29_apply, val_main_cst_2_apply, Ideal.ofBits_def, Ideal.ofBits_zero_f32, zero_add]
  exact Finset.sum_congr rfl fun k _ => by rw [e, v28_eq]

/-- A probability: the exponential over its row's sum. -/
theorem v32_eq (x0 : Rows) (x1 : Mat) (x2 : Vec) (x3 : Mat) (x4 : Vec) (β : Fin 8) (h : Fin 12) (s t : Fin 1024) :
    val_main_v32 (F := Ideal) x0 x1 x2 x3 x4 (ix4 β h s t)
      = Ideal.div (Ideal.exp (scoreRow x0 x1 x2 x3 x4 β h s t - rowMax (scoreRow x0 x1 x2 x3 x4 β h s)))
          (∑ u : Fin 1024, Ideal.exp (scoreRow x0 x1 x2 x3 x4 β h s u - rowMax (scoreRow x0 x1 x2 x3 x4 β h s))) := by
  have e : idx_main_v30 (idx_main_v31 (ix4 β h s t)) = ix3 β h s := by
    funext a
    match a with
    | ⟨0, _⟩ => rfl
    | ⟨1, _⟩ => rfl
    | ⟨2, _⟩ => rfl
  rw [val_main_v32_apply, val_main_v31_apply, val_main_v30_apply, Ideal.hostDivf_def, e, v28_eq, v29_eq]

/-- The probabilities times the values: entry (β, h, s, d) is that head's output at row s, column d. -/
theorem v33_eq (x0 : Rows) (x1 : Mat) (x2 : Vec) (x3 : Mat) (x4 : Vec) (x5 : Mat) (x6 : Vec)
    (β : Fin 8) (h : Fin 12) (s : Fin 1024) (d : Fin 64) :
    val_main_v33 (F := Ideal) x0 x1 x2 x3 x4 x5 x6 (ix4 β h s d) = headAt x0 x1 x2 x3 x4 x5 x6 β h s d := by
  have el : ∀ k : Fin 1024, lidx_main_v33 (ix4 β h s d) k = ix4 β h s k := fun k => by
    funext a
    match a with
    | ⟨0, _⟩ => rfl
    | ⟨1, _⟩ => rfl
    | ⟨2, _⟩ => rfl
    | ⟨3, _⟩ => rfl
  have er : ∀ k : Fin 1024, ridx_main_v33 (ix4 β h s d) k = ix4 β h k d := fun k => by
    funext a
    match a with
    | ⟨0, _⟩ => rfl
    | ⟨1, _⟩ => rfl
    | ⟨2, _⟩ => rfl
    | ⟨3, _⟩ => rfl
  rw [val_main_v33_apply]
  unfold headAt attnRow
  exact Finset.sum_congr rfl fun k _ => by rw [el, er, v32_eq, v17_eq]

/-! ## Back to [8, 1024, 768] -/

/-- Merging the last two axes, after swapping the middle ones back: position (β, s, j) of [8, 1024, 768] is read at
    (β, j / 64, s, j % 64) of [8, 12, 1024, 64]. -/
theorem merge_idx (β : Fin 8) (s : Fin 1024) (j : Fin 768) :
    idx_main_v34 (idx_main_v35 (ix3 β s j))
      = ix4 β (⟨j.val / 64, by have h : j.val < 768 := j.isLt; omega⟩ : Fin 12) s
          (⟨j.val % 64, Nat.mod_lt _ (by norm_num)⟩ : Fin 64) := by
  funext a; apply Fin.ext
  have h0 : β.val < 8 := β.isLt
  have h1 : s.val < 1024 := s.isLt
  have h2 : j.val < 768 := j.isLt
  match a with
  | ⟨0, _⟩ => show ((β.val * 1024 + s.val) * 768 + j.val) / 786432 = β.val; omega
  | ⟨1, _⟩ => show ((β.val * 1024 + s.val) * 768 + j.val) / 64 % 12 = j.val / 64; omega
  | ⟨2, _⟩ => show ((β.val * 1024 + s.val) * 768 + j.val) / 768 % 1024 = s.val; omega
  | ⟨3, _⟩ => show ((β.val * 1024 + s.val) * 768 + j.val) % 64 = j.val % 64; omega

/-- The reference computes G. -/
theorem ref_eq_G (x0 : (⟨S8x1024x768, .f32⟩ : BufTy).Contents (Elt Ideal))
    (x1 : (⟨S768x768, .f32⟩ : BufTy).Contents (Elt Ideal)) (x2 : (⟨S768, .f32⟩ : BufTy).Contents (Elt Ideal))
    (x3 : (⟨S768x768, .f32⟩ : BufTy).Contents (Elt Ideal)) (x4 : (⟨S768, .f32⟩ : BufTy).Contents (Elt Ideal))
    (x5 : (⟨S768x768, .f32⟩ : BufTy).Contents (Elt Ideal)) (x6 : (⟨S768, .f32⟩ : BufTy).Contents (Elt Ideal)) :
    Cert.ReferenceIdeal.Read.val_main_v35 (F := Ideal) x0 x1 x2 x3 x4 x5 x6 = Cert.Attn.G x0 x1 x2 x3 x4 x5 x6 := by
  funext y
  obtain ⟨β, s, j, rfl⟩ : ∃ (β : Fin 8) (s : Fin 1024) (j : Fin 768), y = ix3 β s j := ⟨y 0, y 1, y 2, eq_ix3 y⟩
  rw [val_main_v35_apply, val_main_v34_apply, merge_idx, v33_eq]
  rfl

end Cert.ReferenceIdeal.RefValue

end
-- ==== Proof.lean ====
/-
  Fused multi-head self-attention against its plain reference, over the extended reals.

  Both programs compute, for a batch x : [8, 1024, 768], query / key / value weights and biases, and 12 heads of width 64,
      out(β, s, 64h + d) = Σ_t softmax_t((Q(β, s, h·) · K(β, t, h·)) / √64) · V(β, t, 64h + d),     Q = x Wqᵀ + bq, …
  The kernel handles one batch entry per grid point: it forms Q, K, V with three plain products against the transposed
  weights, keeps them in scratch buffers, and for each head takes 64 columns of each, scales the scores by the exact
  dyadic 1/8, subtracts the row maximum, exponentiates, normalises by the row sum and multiplies with the values, storing
  the head's 64 columns of the output block. The reference contracts the same axes with batched products after splitting
  the feature axis into (head, 64), divides by the square root of 64 taken at run time, and applies the same softmax.
  Entry by entry the two are the same sums over the same index sets, the same maximum, exponential and quotient; the only
  laws used are  a / √64 = a · (1/8)  (√64 = 8 and 1/8 is the value of the kernel's literal),  max(−∞, m) = m  and
  0 + Σ = Σ.  No finiteness of the inputs is needed for the equality; the precondition is not opened.

  The frames of the two kernel programs and the run of the reference are the generated ones; the ledger of rewrites is
  empty, so the idealization statement is trivial.
-/
import proofs.«136178_j10746008174892_2_alg».proof.Defs
import proofs.«136178_j10746008174892_2_alg».proof.Proof.Gen.Kernel
import proofs.«136178_j10746008174892_2_alg».proof.Proof.Gen.Kernel.Skeleton
import proofs.«136178_j10746008174892_2_alg».proof.Proof.Gen.Kernel.Launch
import proofs.«136178_j10746008174892_2_alg».proof.Proof.Gen.Kernel.Points
import proofs.«136178_j10746008174892_2_alg».proof.Proof.Gen.Kernel.Frame
import proofs.«136178_j10746008174892_2_alg».proof.Proof.Gen.KernelIdeal
import proofs.«136178_j10746008174892_2_alg».proof.Proof.Gen.KernelIdeal.Skeleton
import proofs.«136178_j10746008174892_2_alg».proof.Proof.Gen.KernelIdeal.Launch
import proofs.«136178_j10746008174892_2_alg».proof.Proof.Gen.KernelIdeal.Points
import proofs.«136178_j10746008174892_2_alg».proof.Proof.Gen.KernelIdeal.Frame
import proofs.«136178_j10746008174892_2_alg».proof.Proof.Gen.KernelIdeal.Value
import proofs.«136178_j10746008174892_2_alg».proof.Proof.Gen.ReferenceIdeal
import proofs.«136178_j10746008174892_2_alg».proof.Proof.Gen.ReferenceIdeal.Run
import proofs.«136178_j10746008174892_2_alg».proof.Proof.Gen.ReferenceIdeal.Read
import proofs.«136178_j10746008174892_2_alg».proof.Proof.Gen.Pre_finite_inputs
import proofs.«136178_j10746008174892_2_alg».proof.Proof.KFinal
import proofs.«136178_j10746008174892_2_alg».proof.Proof.RefIsG
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the arguments, the kernel's result array ends at the attention function G of the
    arguments and the reference's at its composed term of the same arguments, which is G index by index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.ref_eq_G,
    (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
